-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x256 .f32 .bf16
  ∧ IdealRules.truncf_extf.Statement Cert.KernelIdeal.S2048x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S256x64 : Shape := ⟨2, ![256, 64]⟩
abbrev S256 : Shape := ⟨1, ![256]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S256x64 .f32) (main_arg3 : FVec F S256 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4x16x2048x64 : Shape := ⟨4, ![4, 16, 2048, 64]⟩
abbrev S256x64 : Shape := ⟨2, ![256, 64]⟩
abbrev S256 : Shape := ⟨1, ![256]⟩
abbrev S64x2048x64 : Shape := ⟨3, ![64, 2048, 64]⟩
abbrev S64x256 : Shape := ⟨2, ![64, 256]⟩
abbrev S1x256 : Shape := ⟨2, ![1, 256]⟩
abbrev S64x2048x2048 : Shape := ⟨3, ![64, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x256 : Shape := ⟨2, ![1024, 256]⟩
abbrev S1024 : Shape := ⟨1, ![1024]⟩
abbrev S1024x1 : Shape := ⟨2, ![1024, 1]⟩
abbrev S2048x256 : Shape := ⟨2, ![2048, 256]⟩
abbrev S2048 : Shape := ⟨1, ![2048]⟩
abbrev S2048x1 : Shape := ⟨2, ![2048, 1]⟩
abbrev S256x2048 : Shape := ⟨2, ![256, 2048]⟩
abbrev S1024x2048 : Shape := ⟨2, ![1024, 2048]⟩
abbrev S4x16x2048x2048 : Shape := ⟨4, ![4, 16, 2048, 2048]⟩

abbrev nBuf : Space → Nat
  | .hbm => 10
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S256x64, .f32⟩
  | .hbm, ⟨3, _⟩ => ⟨S256, .f32⟩
  | .hbm, ⟨4, _⟩ => ⟨S64x2048x64, .f32⟩
  | .hbm, ⟨5, _⟩ => ⟨S64x2048x64, .f32⟩
  | .hbm, ⟨6, _⟩ => ⟨S64x256, .f32⟩
  | .hbm, ⟨7, _⟩ => ⟨S1x256, .f32⟩
  | .hbm, ⟨8, _⟩ => ⟨S64x2048x2048, .f32⟩
  | .hbm, ⟨9, _⟩ => ⟨S4x16x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S64x256, .f32⟩
  | .local _ .vmem, ⟨5, _⟩ => ⟨S1x256, .f32⟩
  | .local _ .vmem, ⟨6, _⟩ => ⟨S1x1024x2048, .f32⟩
  | .local _ .vmem, ⟨7, _⟩ => ⟨S1x1024x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  transposes_S256x64_S64x256_1_0 : S256x64.Transposes [1, 0] S64x256
  shapeCasts_S256_S1x256 : S256.ShapeCasts S1x256
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  transposes_S2048x256_p1_0_S256x2048 : S2048x256.Transposes [1, 0] S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S64x2048x2048_S4x16x2048x2048 : S64x2048x2048.ShapeCasts S4x16x2048x2048
  dot_S1024x64_S64x256_S1024x256_1_0_0_1_n_n_wf : DotDims.WF S1024x64 S64x256 S1024x256 [1] [0] [0] [1] [] []
  dot_S2048x64_S64x256_S2048x256_1_0_0_1_n_n_wf : DotDims.WF S2048x64 S64x256 S2048x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S64x2048x2048.size a
  hwx0_4 : ∀ i : grid0.Coords, EltTy.bits .f32 = 32 ∨ (Rect.block (s := S64x2048x2048) S1x1024x2048.size (cc0_transform_4 i) (hinb0_4 i)).WholeWords (EltTy.packing .f32)

variable [Facts₀]

def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S256x64 : Shape := ⟨2, ![256, 64]⟩
abbrev S256 : Shape := ⟨1, ![256]⟩
abbrev S4x16x2048x256 : Shape := ⟨4, ![4, 16, 2048, 256]⟩
abbrev S1x1x1x256 : Shape := ⟨4, ![1, 1, 1, 256]⟩
abbrev S_ : Shape := ⟨0, ![]⟩
abbrev S4x16x2048 : Shape := ⟨3, ![4, 16, 2048]⟩
abbrev S4x16x2048x1 : Shape := ⟨4, ![4, 16, 2048, 1]⟩
abbrev S4x16x2048x2048 : Shape := ⟨4, ![4, 16, 2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S256x64, .f32⟩
  | .hbm, ⟨3, _⟩ => ⟨S256, .f32⟩
  | .hbm, ⟨4, _⟩ => ⟨S4x16x2048x256, .f32⟩
  | .hbm, ⟨5, _⟩ => ⟨S1x1x1x256, .f32⟩
  | .hbm, ⟨6, _⟩ => ⟨S4x16x2048x256, .f32⟩
  | .hbm, ⟨7, _⟩ => ⟨S4x16x2048x256, .f32⟩
  | .hbm, ⟨8, _⟩ => ⟨S4x16x2048x256, .f32⟩
  | .hbm, ⟨9, _⟩ => ⟨S_, .f32⟩
  | .hbm, ⟨10, _⟩ => ⟨S4x16x2048x256, .f32⟩
  | .hbm, ⟨11, _⟩ => ⟨S4x16x2048x256, .f32⟩
  | .hbm, ⟨12, _⟩ => ⟨S4x16x2048x256, .f32⟩
  | .hbm, ⟨13, _⟩ => ⟨S_, .f32⟩
  | .hbm, ⟨14, _⟩ => ⟨S4x16x2048, .f32⟩
  | .hbm, ⟨15, _⟩ => ⟨S4x16x2048x1, .f32⟩
  | .hbm, ⟨16, _⟩ => ⟨S4x16x2048x1, .f32⟩
  | .hbm, ⟨17, _⟩ => ⟨S_, .f32⟩
  | .hbm, ⟨18, _⟩ => ⟨S4x16x2048x1, .f32⟩
  | .hbm, ⟨19, _⟩ => ⟨S4x16x2048x1, .f32⟩
  | .hbm, ⟨20, _⟩ => ⟨S4x16x2048x256, .f32⟩
  | .hbm, ⟨21, _⟩ => ⟨S4x16x2048x256, .f32⟩
  | .hbm, ⟨22, _⟩ => ⟨S4x16x2048x256, .f32⟩
  | .hbm, ⟨23, _⟩ => ⟨S1x1x1x256, .f32⟩
  | .hbm, ⟨24, _⟩ => ⟨S4x16x2048x256, .f32⟩
  | .hbm, ⟨25, _⟩ => ⟨S4x16x2048x256, .f32⟩
  | .hbm, ⟨26, _⟩ => ⟨S4x16x2048x256, .f32⟩
  | .hbm, ⟨27, _⟩ => ⟨S_, .f32⟩
  | .hbm, ⟨28, _⟩ => ⟨S4x16x2048x256, .f32⟩
  | .hbm, ⟨29, _⟩ => ⟨S4x16x2048x256, .f32⟩
  | .hbm, ⟨30, _⟩ => ⟨S4x16x2048x256, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x1, .f32⟩
  | .hbm, ⟨35, _⟩ => ⟨S_, .f32⟩
  | .hbm, ⟨36, _⟩ => ⟨S4x16x2048x1, .f32⟩
  | .hbm, ⟨37, _⟩ => ⟨S4x16x2048x1, .f32⟩
  | .hbm, ⟨38, _⟩ => ⟨S4x16x2048x256, .f32⟩
  | .hbm, ⟨39, _⟩ => ⟨S4x16x2048x256, .f32⟩
  | .hbm, ⟨40, _⟩ => ⟨S4x16x2048x2048, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S4x16x2048x256_0_1_2_3 : S1x1x1x256.BroadcastsInDim S4x16x2048x256 (![0, 1, 2, 3] : Fin 4 → Fin S4x16x2048x256.rank)
  bcast_S_S4x16x2048x256 : S_.BroadcastsInDim S4x16x2048x256 (![] : Fin 0 → Fin S4x16x2048x256.rank)
  reducesTo_S4x16x2048x256_S4x16x2048_d3 : S4x16x2048x256.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x256_0_1_2_3 : S4x16x2048x1.BroadcastsInDim S4x16x2048x256 (![0, 1, 2, 3] : Fin 4 → Fin S4x16x2048x256.rank)
  dot_S4x16x2048x64_S256x64_S4x16x2048x256_3_1_012_0_n_n_wf : DotDims.WF S4x16x2048x64 S256x64 S4x16x2048x256 [3] [1] [0, 1, 2] [0] [] []
  dot_S4x16x2048x256_S4x16x2048x256_S4x16x2048x2048_3_3_2_2_01_01_wf : DotDims.WF S4x16x2048x256 S4x16x2048x256 S4x16x2048x2048 [3] [3] [2] [2] [0, 1] [0, 1]

variable [Facts₀]

def dot_S4x16x2048x64_S256x64_S4x16x2048x256_3_1_012_0_n_n : DotDims S4x16x2048x64 S256x64 S4x16x2048x256 where
  lhsContracting := [3]
  rhsContracting := [1]
  lhsNonContracting := [0, 1, 2]
  rhsNonContracting := [0]
  lhsBatch := []
  rhsBatch := []
  wf := dot_S4x16x2048x64_S256x64_S4x16x2048x256_3_1_012_0_n_n_wf
def dot_S4x16x2048x256_S4x16x2048x256_S4x16x2048x2048_3_3_2_2_01_01 : DotDims S4x16x2048x256 S4x16x2048x256 S4x16x2048x2048 where
  lhsContracting := [3]
  rhsContracting := [3]
  lhsNonContracting := [2]
  rhsNonContracting := [2]
  lhsBatch := [0, 1]
  rhsBatch := [0, 1]
  wf := dot_S4x16x2048x256_S4x16x2048x256_S4x16x2048x2048_3_3_2_2_01_01_wf

class Facts : Prop extends Facts₀ where

variable [Facts]
-- ==== Proof.LibRealSplit.lean ====
/-
  Real numbers inside the extended reals: finite sums, a square root, and an inner product taken over leading parts and
  residuals.

  A finite sum of real numbers taken in the extended reals is a real number (nonnegative if the terms are); the root of
  a nonnegative real is the real root; and when two vectors `u`, `v` have real entries, writing each as a leading part
  (itself) plus a residual (itself minus itself, which is `0` exactly because the entry is finite: `⊤ − ⊤ = ⊥`) and
  summing leading·leading + leading·residual + residual·leading gives the plain inner product `∑ u·v`. The last is
  what remains, on the extended reals, of computing a product of two high-precision matrices as three products of their
  low-precision leading parts and residuals.
-/
import Idealize.ShloMosaic.PureOps.Ideal
import Idealize.ShloMosaic.PureOps.Ideal.Laws

noncomputable section

open scoped BigOperators

namespace Cert.LibRealSplit

open Idealize.ShloMosaic

/-! ## Finite sums of reals -/

/-- A finite sum of real numbers, taken in the extended reals, is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- A finite sum of nonnegative real numbers is a nonnegative real number. -/
theorem nonneg_real_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by rw [Finset.sum_empty, EReal.coe_zero]⟩
  | insert a s ha ih =>
    obtain ⟨r, hr0, hr⟩ := h a (Finset.mem_insert_self a s)
    obtain ⟨q, hq0, hq⟩ := ih fun i hi => h i (Finset.mem_insert_of_mem hi)
    exact ⟨r + q, add_nonneg hr0 hq0, by rw [Finset.sum_insert ha, hr, hq, EReal.coe_add]⟩

/-- The root of a nonnegative real is the real root. -/
theorem sqrt_coe {r : ℝ} (h : 0 ≤ r) : Ideal.sqrt (r : EReal) = ((Real.sqrt r : ℝ) : EReal) := by
  show (if r < 0 then ⊥ else (Real.sqrt r : EReal)) = _
  rw [if_neg (not_lt.2 h)]

/-! ## The residual products vanish -/

/-- For vectors with real entries the leading-part-and-residual inner product is the plain inner product. -/
theorem split_sum_eq {M : ℕ} (pq pk : Fin M → EReal) (hq : ∀ j, ∃ r : ℝ, pq j = (r : EReal))
    (hk : ∀ j, ∃ r : ℝ, pk j = (r : EReal)) :
    (∑ j, pq j * pk j) + (∑ j, pq j * (pk j - pk j)) + (∑ j, (pq j - pq j) * pk j) = ∑ j, pq j * pk j := by
  have h0 : ∀ z : EReal, (∃ r : ℝ, z = (r : EReal)) → z - z = 0 := by
    rintro z ⟨r, rfl⟩
    rw [← EReal.coe_sub, sub_self, EReal.coe_zero]
  have eq : ∀ j, pq j - pq j = 0 := fun j => h0 _ (hq j)
  have ek : ∀ j, pk j - pk j = 0 := fun j => h0 _ (hk j)
  simp only [eq, ek, mul_zero, zero_mul, Finset.sum_const_zero, add_zero]

end Cert.LibRealSplit

end
-- ==== Proof.FeatureSim.lean ====
/-
  Random cosine features and their similarity, on the extended reals.

  A row `x` of `D` numbers is projected by a weight matrix `w` (one row per feature) and a bias `b`, passed through
  the cosine, scaled by a constant `c`, and divided by its Euclidean norm plus a small constant `ε`:

      feat x j = c · cos (∑ d, x d · w j d + b j),      φ x j = feat x j / (√(∑ l, (feat x l)²) + ε).

  The similarity of two rows is the inner product of their feature vectors, `sim xq xk = ∑ j, φ xq j · φ xk j`.

  A second way to compute the same number writes each feature vector as a leading part `φ` plus a residual
  `φ − φ` and drops the residual-by-residual product:

      ∑ φq·φk + ∑ φq·(φk − φk) + ∑ (φq − φq)·φk.

  On the extended reals `z − z = 0` exactly when `z` is finite (`⊤ − ⊤ = ⊥`), so the two agree once every feature is a
  real number; and the features are real whenever the rows, the weights and the bias are: the projection is a finite
  sum of products of reals, the cosine of a real is real, the sum of squares is a nonnegative real, its root is real,
  and the divisor `√· + ε` is a positive real because `ε` is.
-/
import Idealize.ShloMosaic.PureOps.Ideal
import Idealize.ShloMosaic.PureOps.Ideal.Laws
import Idealize.ShloMosaic.Lib.ValueIdx
import proofs.«152870_j45019847197425_2_alg».proof.Proof.LibRealSplit

noncomputable section

open scoped BigOperators

namespace Cert.FeatureSim

open Idealize.ShloMosaic Idealize.ShloMosaic.ValueIdx Cert.LibRealSplit

/-- The features' scale, the single-precision number nearest to `√(2/256)`. -/
def scale : EReal := Ideal.ofBits .f32 0x3DB504F3#32

/-- The constant added to the norm, the single-precision number nearest to `10⁻⁸`. -/
def eps : EReal := Ideal.ofBits .f32 0x322BCC77#32

/-- The scale is a real number (a normal binary pattern). -/
theorem scale_real : ∃ r : ℝ, scale = (r : EReal) := by
  unfold scale
  simp only [Ideal.ofBits, Ideal.ieee]
  rw [if_neg (by decide), if_neg (by decide)]
  exact ⟨_, rfl⟩

/-- The added constant is a positive real number (a normal binary pattern with the sign bit clear). -/
theorem eps_pos : ∃ r : ℝ, 0 < r ∧ eps = (r : EReal) := by
  unfold eps
  simp only [Ideal.ofBits, Ideal.ieee]
  rw [if_neg (by decide), if_neg (by decide)]
  refine ⟨_, ?_, rfl⟩
  rw [if_neg (by decide)]
  positivity

variable {D M : ℕ}

/-- One scaled cosine feature of a row. -/
def feat (x : Fin D → EReal) (w : Fin M → Fin D → EReal) (b : Fin M → EReal) (j : Fin M) : EReal :=
  scale * Ideal.cos ((∑ d, x d * w j d) + b j)

/-- The feature divided by the row's feature norm plus `ε`. -/
def phi (x : Fin D → EReal) (w : Fin M → Fin D → EReal) (b : Fin M → EReal) (j : Fin M) : EReal :=
  Ideal.div (feat x w b j) (Ideal.sqrt (∑ l, feat x w b l * feat x w b l) + eps)

/-- The similarity of two rows: the inner product of their normalised feature vectors. -/
def sim (xq xk : Fin D → EReal) (w : Fin M → Fin D → EReal) (b : Fin M → EReal) : EReal :=
  ∑ j, phi xq w b j * phi xk w b j

/-- The same inner product taken over leading parts and residuals, the residual-by-residual term dropped. -/
def simSplit (xq xk : Fin D → EReal) (w : Fin M → Fin D → EReal) (b : Fin M → EReal) : EReal :=
  (∑ j, phi xq w b j * phi xk w b j) + (∑ j, phi xq w b j * (phi xk w b j - phi xk w b j))
    + ∑ j, (phi xq w b j - phi xq w b j) * phi xk w b j

/-! ## The features of real rows are real -/

section Real

variable {x : Fin D → EReal} {w : Fin M → Fin D → EReal} {b : Fin M → EReal}

theorem feat_real (hx : ∀ d, ∃ r : ℝ, x d = (r : EReal)) (hw : ∀ j d, ∃ r : ℝ, w j d = (r : EReal))
    (hb : ∀ j, ∃ r : ℝ, b j = (r : EReal)) (j : Fin M) : ∃ r : ℝ, feat x w b j = (r : EReal) := by
  obtain ⟨c, hc⟩ := scale_real
  obtain ⟨s, hs⟩ := real_sum Finset.univ (fun d => x d * w j d) fun d _ => by
    obtain ⟨a, ha⟩ := hx d
    obtain ⟨e, he⟩ := hw j d
    exact ⟨a * e, by rw [ha, he, EReal.coe_mul]⟩
  obtain ⟨β, hβ⟩ := hb j
  refine ⟨c * Real.cos (s + β), ?_⟩
  unfold feat
  rw [hs, hβ, ← EReal.coe_add, hc, EReal.coe_mul]
  rfl

theorem phi_real (hx : ∀ d, ∃ r : ℝ, x d = (r : EReal)) (hw : ∀ j d, ∃ r : ℝ, w j d = (r : EReal))
    (hb : ∀ j, ∃ r : ℝ, b j = (r : EReal)) (j : Fin M) : ∃ r : ℝ, phi x w b j = (r : EReal) := by
  obtain ⟨f, hf⟩ := feat_real hx hw hb j
  obtain ⟨n, hn0, hn⟩ := nonneg_real_sum Finset.univ (fun l => feat x w b l * feat x w b l) fun l _ => by
    obtain ⟨g, hg⟩ := feat_real hx hw hb l
    exact ⟨g * g, mul_self_nonneg g, by rw [hg, EReal.coe_mul]⟩
  obtain ⟨e, he0, he⟩ := eps_pos
  have hy : Real.sqrt n + e ≠ 0 := ne_of_gt (add_pos_of_nonneg_of_pos (Real.sqrt_nonneg n) he0)
  refine ⟨f * (1 / (Real.sqrt n + e)), ?_⟩
  unfold phi
  rw [hf, hn, sqrt_coe hn0, he, ← EReal.coe_add, Ideal.div_coe hy, EReal.coe_mul]

end Real

/-! ## The residual products vanish -/

/-- So for real rows, weights and bias the two similarities agree. -/
theorem simSplit_eq_sim {xq xk : Fin D → EReal} {w : Fin M → Fin D → EReal} {b : Fin M → EReal}
    (hq : ∀ d, ∃ r : ℝ, xq d = (r : EReal)) (hk : ∀ d, ∃ r : ℝ, xk d = (r : EReal))
    (hw : ∀ j d, ∃ r : ℝ, w j d = (r : EReal)) (hb : ∀ j, ∃ r : ℝ, b j = (r : EReal)) :
    simSplit xq xk w b = sim xq xk w b :=
  split_sum_eq _ _ (phi_real hq hw hb) (phi_real hk hw hb)

end Cert.FeatureSim

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.FeatureRows.lean ====
/-
  Normalised cosine features of the rows of a matrix, as vector operations spell them, read at an entry.

  For an `n × 64` matrix `X`, a `64 × 256` matrix `Wt` and a `1 × 256` row `B`, the operations

      F = c · cos (X·Wt + B spread over the rows),     Φ = F / ((√(row sums of F²) as a column + ε) spread over the columns)

  read at entry `(p, j)` are the feature `feat` and the normalised feature `φ` of row `p` of `X` against the weights
  `w j d = Wt (d, j)` and the bias `b j = B (0, j)`: the product into a zero accumulator is the plain sum over the
  contracted coordinate, the row spread reads the row, the sum over the second axis is the plain sum, and the column
  recast and spread read the row's entry.
-/
import proofs.«152870_j45019847197425_2_alg».proof.Proof.FeatureSim
import proofs.«152870_j45019847197425_2_alg».proof.Proof.LibColumns
import proofs.«152870_j45019847197425_2_alg».proof.Proof.LibPlainDot
import Idealize.ShloMosaic.Lib.ValueLayout

noncomputable section

open scoped BigOperators

namespace Cert.FeatureRows

open Idealize.ShloMosaic Idealize.ShloMosaic.ValueIdx Cert.FeatureSim

variable {n : ℕ}

/-- The scaled cosine features of every row. -/
def featRows (D : DotDims (⟨2, ![n, 64]⟩ : Shape) (⟨2, ![64, 256]⟩ : Shape) (⟨2, ![n, 256]⟩ : Shape))
    (X : FVec Ideal ⟨2, ![n, 64]⟩ .f32) (Wt : FVec Ideal ⟨2, ![64, 256]⟩ .f32) (B : FVec Ideal ⟨2, ![1, 256]⟩ .f32)
    (hb : (⟨2, ![1, 256]⟩ : Shape).Broadcasts ⟨2, ![n, 256]⟩) : FVec Ideal ⟨2, ![n, 256]⟩ .f32 :=
  mulf (broadcast ⟨2, ![n, 256]⟩ (Scalar.ofBits .f32 0x3DB504F3#32))
    (cos (addf (matmul D none X Wt (constant ⟨2, ![n, 256]⟩ .f32 0x00000000#32)) (broadcastTo ⟨2, ![n, 256]⟩ B hb)))

/-- Each row's features divided by the row's norm plus `ε`. -/
def phiRows (D : DotDims (⟨2, ![n, 64]⟩ : Shape) (⟨2, ![64, 256]⟩ : Shape) (⟨2, ![n, 256]⟩ : Shape))
    (X : FVec Ideal ⟨2, ![n, 64]⟩ .f32) (Wt : FVec Ideal ⟨2, ![64, 256]⟩ .f32) (B : FVec Ideal ⟨2, ![1, 256]⟩ .f32)
    (hb : (⟨2, ![1, 256]⟩ : Shape).Broadcasts ⟨2, ![n, 256]⟩)
    (hred : (⟨2, ![n, 256]⟩ : Shape).Reduces [1] ⟨1, ![n]⟩) (hsc : (⟨1, ![n]⟩ : Shape).ShapeCasts ⟨2, ![n, 1]⟩)
    (hbc : (⟨2, ![n, 1]⟩ : Shape).Broadcasts ⟨2, ![n, 256]⟩) : FVec Ideal ⟨2, ![n, 256]⟩ .f32 :=
  divf (featRows D X Wt B hb)
    (broadcastTo ⟨2, ![n, 256]⟩
      (addf (sqrt (shapeCast ⟨2, ![n, 1]⟩
          (multiReduction .add [1] ⟨1, ![n]⟩ (mulf (featRows D X Wt B hb) (featRows D X Wt B hb)) 0x00000000#32 hred (.inl rfl) rfl) hsc))
        (broadcast ⟨2, ![n, 1]⟩ (Scalar.ofBits .f32 0x322BCC77#32))) hbc)

section Apply

variable (D : DotDims (⟨2, ![n, 64]⟩ : Shape) (⟨2, ![64, 256]⟩ : Shape) (⟨2, ![n, 256]⟩ : Shape))
  (hr : D.contr.rank = 1) (hs : D.contr.size ⟨0, by omega⟩ = 64)
  (l0 : ∀ (i : (⟨2, ![n, 256]⟩ : Shape).Idx) (q : D.contr.Idx), (D.lhsIdx i q 0).val = (i 0).val)
  (l1 : ∀ (i : (⟨2, ![n, 256]⟩ : Shape).Idx) (q : D.contr.Idx), (D.lhsIdx i q 1).val = (q ⟨0, by omega⟩).val)
  (r0 : ∀ (i : (⟨2, ![n, 256]⟩ : Shape).Idx) (q : D.contr.Idx), (D.rhsIdx i q 0).val = (q ⟨0, by omega⟩).val)
  (r1 : ∀ (i : (⟨2, ![n, 256]⟩ : Shape).Idx) (q : D.contr.Idx), (D.rhsIdx i q 1).val = (i 1).val)
  (X : FVec Ideal ⟨2, ![n, 64]⟩ .f32) (Wt : FVec Ideal ⟨2, ![64, 256]⟩ .f32) (B : FVec Ideal ⟨2, ![1, 256]⟩ .f32)
  (hb : (⟨2, ![1, 256]⟩ : Shape).Broadcasts ⟨2, ![n, 256]⟩)

include hr hs l0 l1 r0 r1 in
/-- Entry `(p, j)` of the features is feature `j` of row `p`. -/
theorem featRows_apply (p : Fin n) (j : Fin 256) :
    featRows D X Wt B hb (ix2 p j)
      = feat (fun d : Fin 64 => X (ix2 p d)) (fun (j : Fin 256) (d : Fin 64) => Wt (ix2 d j)) (fun j : Fin 256 => B (ix2 (0 : Fin 1) j)) j := by
  unfold featRows feat
  show Ideal.ofBits .f32 0x3DB504F3#32
      * Ideal.cos (FloatOps.matmul D none X Wt (constant ⟨2, ![n, 256]⟩ .f32 0x00000000#32) (ix2 p j)
        + broadcastTo ⟨2, ![n, 256]⟩ B hb (ix2 p j)) = _
  rw [Cert.PlainDot.matmul_zero_apply D hr hs l0 l1 r0 r1, broadcastTo_1b_ab_apply]
  rfl

include hr hs l0 l1 r0 r1 in
/-- Entry `(p, j)` of the normalised features is normalised feature `j` of row `p`. -/
theorem phiRows_apply (hred : (⟨2, ![n, 256]⟩ : Shape).Reduces [1] ⟨1, ![n]⟩)
    (hsc : (⟨1, ![n]⟩ : Shape).ShapeCasts ⟨2, ![n, 1]⟩) (hbc : (⟨2, ![n, 1]⟩ : Shape).Broadcasts ⟨2, ![n, 256]⟩)
    (p : Fin n) (j : Fin 256) :
    phiRows D X Wt B hb hred hsc hbc (ix2 p j)
      = phi (fun d : Fin 64 => X (ix2 p d)) (fun (j : Fin 256) (d : Fin 64) => Wt (ix2 d j)) (fun j : Fin 256 => B (ix2 (0 : Fin 1) j)) j := by
  unfold phiRows phi
  rw [divf_apply, Cert.LibColumns.broadcastTo_a1_ab_apply]
  show Ideal.div _ (Ideal.sqrt (shapeCast ⟨2, ![n, 1]⟩
      (multiReduction .add [1] ⟨1, ![n]⟩ (mulf (featRows D X Wt B hb) (featRows D X Wt B hb)) 0x00000000#32 hred (.inl rfl) rfl) hsc
        (ix2 p (0 : Fin 1))) + Ideal.ofBits .f32 0x322BCC77#32) = _
  rw [Cert.LibColumns.shapeCast_a_a1_apply]
  have e1 := featRows_apply D hr hs l0 l1 r0 r1 X Wt B hb p j
  have e2 : multiReduction .add [1] ⟨1, ![n]⟩ (mulf (featRows D X Wt B hb) (featRows D X Wt B hb)) 0x00000000#32 hred (.inl rfl) rfl (ix1 p)
      = ∑ l : Fin 256, feat (fun d : Fin 64 => X (ix2 p d)) (fun (j : Fin 256) (d : Fin 64) => Wt (ix2 d j)) (fun j : Fin 256 => B (ix2 (0 : Fin 1) j)) l
          * feat (fun d : Fin 64 => X (ix2 p d)) (fun (j : Fin 256) (d : Fin 64) => Wt (ix2 d j)) (fun j : Fin 256 => B (ix2 (0 : Fin 1) j)) l :=
    (Cert.LibColumns.rowSum_apply _ _ hred (.inl rfl) rfl p).trans (Finset.sum_congr rfl fun l _ => by
      rw [mulf_apply, featRows_apply D hr hs l0 l1 r0 r1 X Wt B hb])
  exact congrArg₂ (fun a s => Ideal.div a (Ideal.sqrt s + Ideal.ofBits .f32 0x322BCC77#32)) e1 e2

end Apply

end Cert.FeatureRows

end
-- ==== Proof.KernelPayload.lean ====
/-
  What the kernel's body stores, read at an entry.

  At one grid point the body holds a block of 1024 query rows, all 2048 key rows of the same batch-head, the
  transposed weights `64 × 256` and the bias row `1 × 256`. It forms the normalised features of the query rows and of
  the key rows, splits each into a leading part (the features themselves: a change of number format is the identity on
  the extended reals) and a residual (the features minus themselves), and stores

      lead_q · lead_kᵀ + lead_q · resid_kᵀ + resid_q · lead_kᵀ.

  Entry `(p, c)` of that block is therefore the split similarity of query row `p` and key row `c`.
-/
import proofs.«152870_j45019847197425_2_alg».proof.Proof.Gen.KernelIdeal.Skeleton
import proofs.«152870_j45019847197425_2_alg».proof.Proof.FeatureRows

noncomputable section

open scoped BigOperators

namespace Cert.KernelIdeal.Payload

open Idealize.ShloMosaic Idealize.ShloMosaic.ValueIdx Cert.KernelIdeal Cert.KernelIdeal.Gen Cert.FeatureSim Cert.FeatureRows

/-! ## The three products' dimension numbers, coordinate by coordinate -/

theorem dq_l0 (i : _) (q : dot_S1024x64_S64x256_S1024x256_1_0_0_1_n_n.contr.Idx) : (dot_S1024x64_S64x256_S1024x256_1_0_0_1_n_n.lhsIdx i q 0).val = (i 0).val := by
  unfold DotDims.lhsIdx
  rw [dif_neg (show ¬(0 : Fin S1024x64.rank) ∈ dot_S1024x64_S64x256_S1024x256_1_0_0_1_n_n.lhsBatch by decide), dif_pos (show (0 : Fin S1024x64.rank) ∈ dot_S1024x64_S64x256_S1024x256_1_0_0_1_n_n.lhsNonContracting by decide)]
  rfl
theorem dq_l1 (i : _) (q : dot_S1024x64_S64x256_S1024x256_1_0_0_1_n_n.contr.Idx) : (dot_S1024x64_S64x256_S1024x256_1_0_0_1_n_n.lhsIdx i q 1).val = (q ⟨0, by decide⟩).val :=
  dot_S1024x64_S64x256_S1024x256_1_0_0_1_n_n.lhsIdx_val_of_single rfl i q
theorem dq_r0 (i : _) (q : dot_S1024x64_S64x256_S1024x256_1_0_0_1_n_n.contr.Idx) : (dot_S1024x64_S64x256_S1024x256_1_0_0_1_n_n.rhsIdx i q 0).val = (q ⟨0, by decide⟩).val :=
  dot_S1024x64_S64x256_S1024x256_1_0_0_1_n_n.rhsIdx_val_of_single rfl i q
theorem dq_r1 (i : _) (q : dot_S1024x64_S64x256_S1024x256_1_0_0_1_n_n.contr.Idx) : (dot_S1024x64_S64x256_S1024x256_1_0_0_1_n_n.rhsIdx i q 1).val = (i 1).val := by
  unfold DotDims.rhsIdx
  rw [dif_neg (show ¬(1 : Fin S64x256.rank) ∈ dot_S1024x64_S64x256_S1024x256_1_0_0_1_n_n.rhsBatch by decide), dif_pos (show (1 : Fin S64x256.rank) ∈ dot_S1024x64_S64x256_S1024x256_1_0_0_1_n_n.rhsNonContracting by decide)]
  rfl

theorem dk_l0 (i : _) (q : dot_S2048x64_S64x256_S2048x256_1_0_0_1_n_n.contr.Idx) : (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem dk_l1 (i : _) (q : dot_S2048x64_S64x256_S2048x256_1_0_0_1_n_n.contr.Idx) : (dot_S2048x64_S64x256_S2048x256_1_0_0_1_n_n.lhsIdx i q 1).val = (q ⟨0, by decide⟩).val :=
  dot_S2048x64_S64x256_S2048x256_1_0_0_1_n_n.lhsIdx_val_of_single rfl i q
theorem dk_r0 (i : _) (q : dot_S2048x64_S64x256_S2048x256_1_0_0_1_n_n.contr.Idx) : (dot_S2048x64_S64x256_S2048x256_1_0_0_1_n_n.rhsIdx i q 0).val = (q ⟨0, by decide⟩).val :=
  dot_S2048x64_S64x256_S2048x256_1_0_0_1_n_n.rhsIdx_val_of_single rfl i q
theorem dk_r1 (i : _) (q : dot_S2048x64_S64x256_S2048x256_1_0_0_1_n_n.contr.Idx) : (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

theorem ds_l0 (i : _) (q : dot_S1024x256_S256x2048_S1024x2048_1_0_0_1_n_n.contr.Idx) : (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem ds_l1 (i : _) (q : dot_S1024x256_S256x2048_S1024x2048_1_0_0_1_n_n.contr.Idx) : (dot_S1024x256_S256x2048_S1024x2048_1_0_0_1_n_n.lhsIdx i q 1).val = (q ⟨0, by decide⟩).val :=
  dot_S1024x256_S256x2048_S1024x2048_1_0_0_1_n_n.lhsIdx_val_of_single rfl i q
theorem ds_r0 (i : _) (q : dot_S1024x256_S256x2048_S1024x2048_1_0_0_1_n_n.contr.Idx) : (dot_S1024x256_S256x2048_S1024x2048_1_0_0_1_n_n.rhsIdx i q 0).val = (q ⟨0, by decide⟩).val :=
  dot_S1024x256_S256x2048_S1024x2048_1_0_0_1_n_n.rhsIdx_val_of_single rfl i q
theorem ds_r1 (i : _) (q : dot_S1024x256_S256x2048_S1024x2048_1_0_0_1_n_n.contr.Idx) : (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-! ## The normalised features of the query block and of the key rows -/

/-- Entry `(p, j)` of the query block's normalised features. -/
theorem pay4_apply (v0 : Vec Ideal S1x1024x64 .f32) (v4 : Vec Ideal S64x256 .f32) (v6 : Vec Ideal S1x256 .f32)
    (p : Fin 1024) (j : Fin 256) :
    k0_pay4 v0 v4 v6 (ix2 p j)
      = phi (fun d : Fin 64 => v0 (ix3 (0 : Fin 1) p d)) (fun (j : Fin 256) (d : Fin 64) => v4 (ix2 d j)) (fun j : Fin 256 => v6 (ix2 (0 : Fin 1) j)) j := by
  show phiRows dot_S1024x64_S64x256_S1024x256_1_0_0_1_n_n (shapeCast S1024x64 v0 shapeCasts_S1x1024x64_S1024x64) (shapeCast S64x256 v4 shapeCasts_S64x256_S64x256)
      (shapeCast S1x256 v6 shapeCasts_S1x256_S1x256) broadcasts_S1x256_S1024x256 reduces_S1024x256_S1024 shapeCasts_S1024_S1024x1
      broadcasts_S1024x1_S1024x256 (ix2 p j) = _
  rw [phiRows_apply dot_S1024x64_S64x256_S1024x256_1_0_0_1_n_n rfl rfl dq_l0 dq_l1 dq_r0 dq_r1]
  simp only [shapeCast_1ab_ab_apply, shapeCast_self]

/-- Entry `(c, j)` of the key rows' normalised features. -/
theorem pay5_apply (v2 : Vec Ideal S1x2048x64 .f32) (v4 : Vec Ideal S64x256 .f32) (v6 : Vec Ideal S1x256 .f32)
    (c : Fin 2048) (j : Fin 256) :
    k0_pay5 v2 v4 v6 (ix2 c j)
      = phi (fun d : Fin 64 => v2 (ix3 (0 : Fin 1) c d)) (fun (j : Fin 256) (d : Fin 64) => v4 (ix2 d j)) (fun j : Fin 256 => v6 (ix2 (0 : Fin 1) j)) j := by
  show phiRows dot_S2048x64_S64x256_S2048x256_1_0_0_1_n_n (shapeCast S2048x64 v2 shapeCasts_S1x2048x64_S2048x64) (shapeCast S64x256 v4 shapeCasts_S64x256_S64x256)
      (shapeCast S1x256 v6 shapeCasts_S1x256_S1x256) broadcasts_S1x256_S2048x256 reduces_S2048x256_S2048 shapeCasts_S2048_S2048x1
      broadcasts_S2048x1_S2048x256 (ix2 c j) = _
  rw [phiRows_apply dot_S2048x64_S64x256_S2048x256_1_0_0_1_n_n rfl rfl dk_l0 dk_l1 dk_r0 dk_r1]
  simp only [shapeCast_1ab_ab_apply, shapeCast_self]

/-! ## The stored block -/

/-- The stored value at `(u, p, c)`: the three products' sum, each a plain sum over the 256 features. -/
theorem pay1_apply (v35 : FVec Ideal S2048x256 .f32) (v36 v39 : FVec Ideal S1024x256 .bf16) (u : Fin 1) (p : Fin 1024) (c : Fin 2048) :
    k0_pay1 v35 v36 v39 (ix3 u p c)
      = (∑ k : Fin 256, v36 (ix2 p k) * v35 (ix2 c k)) + (∑ k : Fin 256, v36 (ix2 p k) * (v35 (ix2 c k) - v35 (ix2 c k)))
        + ∑ k : Fin 256, v39 (ix2 p k) * v35 (ix2 c k) := by
  unfold k0_pay1
  dsimp only
  rw [shapeCast_ab_1ab_apply]
  show FloatOps.matmul dot_S1024x256_S256x2048_S1024x2048_1_0_0_1_n_n none v36 (transpose S256x2048 [1, 0] (truncf .bf16 v35 bitsLt_bf16_f32) transposes_S2048x256_p1_0_S256x2048) (constant S1024x2048 .f32 0x00000000#32) (ix2 p c)
      + FloatOps.matmul dot_S1024x256_S256x2048_S1024x2048_1_0_0_1_n_n none v36 (transpose S256x2048 [1, 0] (truncf .bf16 (subf v35 v35) bitsLt_bf16_f32) transposes_S2048x256_p1_0_S256x2048) (constant S1024x2048 .f32 0x00000000#32) (ix2 p c)
      + FloatOps.matmul dot_S1024x256_S256x2048_S1024x2048_1_0_0_1_n_n none v39 (transpose S256x2048 [1, 0] (truncf .bf16 v35 bitsLt_bf16_f32) transposes_S2048x256_p1_0_S256x2048) (constant S1024x2048 .f32 0x00000000#32) (ix2 p c) = _
  rw [Cert.PlainDot.matmul_zero_apply dot_S1024x256_S256x2048_S1024x2048_1_0_0_1_n_n rfl rfl ds_l0 ds_l1 ds_r0 ds_r1,
    Cert.PlainDot.matmul_zero_apply dot_S1024x256_S256x2048_S1024x2048_1_0_0_1_n_n rfl rfl ds_l0 ds_l1 ds_r0 ds_r1,
    Cert.PlainDot.matmul_zero_apply dot_S1024x256_S256x2048_S1024x2048_1_0_0_1_n_n rfl rfl ds_l0 ds_l1 ds_r0 ds_r1]
  have et : ∀ (z : FVec Ideal S2048x256 .bf16) (k : Fin 256),
      transpose S256x2048 [1, 0] z transposes_S2048x256_p1_0_S256x2048 (ix2 k c) = z (ix2 c k) :=
    fun z k => transpose_ix2_apply z transposes_S2048x256_p1_0_S256x2048 k c
  simp only [et]
  rfl

/-- Entry `(u, p, c)` of the block the body stores, from the four loaded blocks: the split similarity of query row `p`
    and key row `c`. -/
theorem block_apply (x0 : Vec Ideal S1x1024x64 .f32) (x1 : Vec Ideal S1x2048x64 .f32) (x2 : Vec Ideal S64x256 .f32) (x3 : Vec Ideal S1x256 .f32)
    (u : Fin 1) (p : Fin 1024) (c : Fin 2048) :
    k0_pay1 (k0_pay5 x1 x2 x3) (k0_pay6 x0 x2 x3) (k0_pay7 x0 x2 x3) (ix3 u p c)
      = simSplit (fun d : Fin 64 => x0 (ix3 (0 : Fin 1) p d)) (fun d : Fin 64 => x1 (ix3 (0 : Fin 1) c d))
          (fun (j : Fin 256) (d : Fin 64) => x2 (ix2 d j)) (fun j : Fin 256 => x3 (ix2 (0 : Fin 1) j)) := by
  rw [pay1_apply]
  unfold simSplit
  have e6 : ∀ k : Fin 256, k0_pay6 x0 x2 x3 (ix2 p k) = k0_pay4 x0 x2 x3 (ix2 p k) := fun _ => rfl
  have e7 : ∀ k : Fin 256, k0_pay7 x0 x2 x3 (ix2 p k) = k0_pay4 x0 x2 x3 (ix2 p k) - k0_pay4 x0 x2 x3 (ix2 p k) := fun _ => rfl
  simp only [e6, e7, pay4_apply, pay5_apply]

end Cert.KernelIdeal.Payload

end
-- ==== Proof.KernelBlocks.lean ====
/-
  From the blocks the grid points write back to the region's whole output array.

  The grid has 64 × 2 points `(g, s)`. At point `(g, s)` the query window holds rows `1024·s … 1024·s + 1023` of
  batch-head `g`, the key window all 2048 rows of batch-head `g`, the weight and bias windows the whole arrays, and the
  output window rows `1024·s …` of batch-head `g` of the `64 × 2048 × 2048` result. Entry `(p, c)` of the stored block
  is the split similarity of query row `p` of the block and key row `c`; so what the point writes back is the block of
  ONE function of the arrays the region finds,

      R (g, q, k) = simSplit (query row (g, q)) (key row (g, k)),

  and since every `(g, q, k)` lies in the block of the point `(g, q / 1024)`, the output array ends holding `R`.
-/
import proofs.«152870_j45019847197425_2_alg».proof.Proof.Gen.KernelIdeal.Frame
import proofs.«152870_j45019847197425_2_alg».proof.Proof.KernelPayload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.FeatureSim
open Idealize.ShloMosaic.Pipeline (Dat)

variable (m : (ℓ : Loc nD τ sig) → Buf (Elt Ideal) ℓ)

/-- The region's result as one function of the arrays it finds: the split similarity of query row `(g, q)` and key
    row `(g, k)`, against the transposed weights and the bias row. -/
def regionResult (q3 k3 : S64x2048x64.Idx → EReal) (wt : S64x256.Idx → EReal) (br : S1x256.Idx → EReal) :
    S64x2048x2048.Idx → EReal := fun i =>
  simSplit (fun d : Fin 64 => q3 (ix3 (⟨(i 0).val, (i 0).isLt⟩ : Fin 64) (⟨(i 1).val, (i 1).isLt⟩ : Fin 2048) d))
    (fun d : Fin 64 => k3 (ix3 (⟨(i 0).val, (i 0).isLt⟩ : Fin 64) (⟨(i 2).val, (i 2).isLt⟩ : Fin 2048) d))
    (fun (j : Fin 256) (d : Fin 64) => wt (ix2 d j)) (fun j : Fin 256 => br (ix2 (0 : Fin 1) j))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 128 grid points: the query and output windows move together on the
    batch-head and row-block axes, the key window follows the batch-head only, the weight and bias windows stay. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 3) = 0 :=
  (by decide +kernel : ∀ t : Fin grid0.N, _)

/-- Every (batch-head, row-block) pair is some point's output block. -/
theorem idx_onto : ∀ (g : Fin 64) (s : Fin 2), ∃ t : Fin cfg0.N, win0_4.index t = ![g.val, s.val, 0] :=
  (by decide +kernel : ∀ (g : Fin 64) (s : Fin 2), ∃ t : Fin grid0.N, win0_4.index t = ![g.val, s.val, 0])

/-- WHAT POINT `t` WRITES BACK is block `t` of `regionResult` of the arrays the region finds. -/
theorem flushed_eq (c : Dev nD) (t : Fin cfg0.N) :
    (dats m 0 c).flushed 4 t
      = ((cfg0.win 4).blk t).view.read (Elt Ideal) (regionResult (V m c main_v0) (V m c main_v1) (V m c main_v2) (V m c main_v3)) := by
  show (cfg0.win 4).cut (grid0.coords t) ((dats m 0 c).after 4 t) = _
  rw [after0_4]
  unfold out0_4
  rw [View.canon_unit_zero hz3]
  simp only [View.ld_unit_zero (S := S1x1024x64) hz3, View.ld_unit_zero (S := S1x2048x64) hz3,
    View.ld_unit_zero (S := S64x256) hz2, View.ld_unit_zero (S := S1x256) hz2]
  obtain ⟨e00, e01, e02, e10, e11, e12, e20, e21, e30, e31, e42⟩ := idx_facts t
  funext y
  obtain ⟨u, p, k, rfl⟩ : ∃ (u : Fin 1) (p : Fin 1024) (k : Fin 2048), y = ix3 u p k := ⟨y 0, y 1, y 2, eq_ix3 y⟩
  refine (Payload.block_apply (iblk m c 0 t) (iblk m c 1 t) (iblk m c 2 t) (iblk m c 3 t) u p k).trans ?_
  have hu : u.val = 0 := by omega
  show simSplit _ _ _ _ = regionResult _ _ _ _ (((cfg0.win 4).blk t).view.emb (ix3 u p k))
  unfold regionResult
  have hq : (fun d : Fin 64 => iblk m c 0 t (ix3 (0 : Fin 1) p d))
      = fun d : Fin 64 => V m c main_v0 (ix3 (⟨((((cfg0.win 4).blk t).view.emb (ix3 u p k)) 0).val, ((((cfg0.win 4).blk t).view.emb (ix3 u p k)) 0).isLt⟩ : Fin 64)
          (⟨((((cfg0.win 4).blk t).view.emb (ix3 u p k)) 1).val, ((((cfg0.win 4).blk t).view.emb (ix3 u p k)) 1).isLt⟩ : Fin 2048) d) := by
    funext d
    show V m c main_v0 (((cfg0.win 0).blk t).view.emb (ix3 (0 : Fin 1) p d)) = _
    refine congrArg (V m c main_v0) (funext fun a => Fin.ext ?_)
    match a with
    | ⟨0, _⟩ => show win0_0.index t (0 : Fin 3) * 1 + 1 * 0 = win0_4.index t (0 : Fin 3) * 1 + 1 * u.val; omega
    | ⟨1, _⟩ => show win0_0.index t (1 : Fin 3) * 1024 + 1 * p.val = win0_4.index t (1 : Fin 3) * 1024 + 1 * p.val; omega
    | ⟨2, _⟩ => show win0_0.index t (2 : Fin 3) * 64 + 1 * d.val = d.val; omega
  have hk : (fun d : Fin 64 => iblk m c 1 t (ix3 (0 : Fin 1) k d))
      = fun d : Fin 64 => V m c main_v1 (ix3 (⟨((((cfg0.win 4).blk t).view.emb (ix3 u p k)) 0).val, ((((cfg0.win 4).blk t).view.emb (ix3 u p k)) 0).isLt⟩ : Fin 64)
          (⟨((((cfg0.win 4).blk t).view.emb (ix3 u p k)) 2).val, ((((cfg0.win 4).blk t).view.emb (ix3 u p k)) 2).isLt⟩ : Fin 2048) d) := by
    funext d
    show V m c main_v1 (((cfg0.win 1).blk t).view.emb (ix3 (0 : Fin 1) k d)) = _
    refine congrArg (V m c main_v1) (funext fun a => Fin.ext ?_)
    match a with
    | ⟨0, _⟩ => show win0_1.index t (0 : Fin 3) * 1 + 1 * 0 = win0_4.index t (0 : Fin 3) * 1 + 1 * u.val; omega
    | ⟨1, _⟩ => show win0_1.index t (1 : Fin 3) * 2048 + 1 * k.val = win0_4.index t (2 : Fin 3) * 2048 + 1 * k.val; omega
    | ⟨2, _⟩ => show win0_1.index t (2 : Fin 3) * 64 + 1 * d.val = d.val; omega
  have hw : (fun (j : Fin 256) (d : Fin 64) => iblk m c 2 t (ix2 d j)) = fun (j : Fin 256) (d : Fin 64) => V m c main_v2 (ix2 d j) := by
    funext j d
    show V m c main_v2 (((cfg0.win 2).blk t).view.emb (ix2 d j)) = _
    refine congrArg (V m c main_v2) (funext fun a => Fin.ext ?_)
    match a with
    | ⟨0, _⟩ => show win0_2.index t (0 : Fin 2) * 64 + 1 * d.val = d.val; omega
    | ⟨1, _⟩ => show win0_2.index t (1 : Fin 2) * 256 + 1 * j.val = j.val; omega
  have hb : (fun j : Fin 256 => iblk m c 3 t (ix2 (0 : Fin 1) j)) = fun j : Fin 256 => V m c main_v3 (ix2 (0 : Fin 1) j) := by
    funext j
    show V m c main_v3 (((cfg0.win 3).blk t).view.emb (ix2 (0 : Fin 1) j)) = _
    refine congrArg (V m c main_v3) (funext fun a => Fin.ext ?_)
    match a with
    | ⟨0, _⟩ => show win0_3.index t (0 : Fin 2) * 1 + 1 * 0 = 0; omega
    | ⟨1, _⟩ => show win0_3.index t (1 : Fin 2) * 256 + 1 * j.val = j.val; omega
  rw [hq, hk, hw, hb]

/-- An index of the output array is in point `t`'s block iff each coordinate is in the block's range on its axis. -/
theorem mem_blk (t : Fin cfg0.N) (i : S64x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v4).slice (win0_4.rect t)).set ↔ _
  rw [View.set_slice_whole, Rect.mem_set_unit]
  exact Iff.rfl

/-- Every index of the output array lies in the block of the point of its batch-head and its row block. -/
theorem cover (i : S64x2048x2048.Idx) : ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- THE OUTPUT ARRAY after the region: `regionResult` of the arrays the region finds. -/
theorem final (c : Dev nD) :
    (dats m 0 c).arrAt 4 cfg0.N = regionResult (V m c main_v0) (V m c main_v1) (V m c main_v2) (V m c main_v3) :=
  (dats m 0 c).arrAt_eq_of_cover 4 _ (fun t _ => flushed_eq m c t) cover

end Cert.KernelIdeal.Blocks

end
-- ==== Proof.SimArray.lean ====
/-
  The similarity of every query row with every key row of the same batch and head, as one array.

  For queries and keys `[4, 16, 2048, 64]`, weights `[256, 64]` and bias `[256]`, entry `(b, h, q, k)` of the result
  `[4, 16, 2048, 2048]` is the similarity of query row `(b, h, q)` and key row `(b, h, k)`. The split form takes the
  split similarity at every entry; the two arrays are equal when every input entry is a real number.
-/
import proofs.«152870_j45019847197425_2_alg».proof.Proof.FeatureSim

noncomputable section

open scoped BigOperators

namespace Cert.FeatureSim

open Idealize.ShloMosaic Idealize.ShloMosaic.ValueIdx

/-- Row `(b, h, s)` of a `[4, 16, 2048, 64]` array, `s` taken from coordinate `a` of a result index. -/
abbrev rowOf (x : (⟨4, ![4, 16, 2048, 64]⟩ : Shape).Idx → EReal) (i : (⟨4, ![4, 16, 2048, 2048]⟩ : Shape).Idx)
    (s : Fin 2048) : Fin 64 → EReal :=
  fun d => x (ix4 (⟨(i 0).val, (i 0).isLt⟩ : Fin 4) (⟨(i 1).val, (i 1).isLt⟩ : Fin 16) s d)

/-- The similarities of all query and key rows that share a batch and a head. -/
def simArray (q k : (⟨4, ![4, 16, 2048, 64]⟩ : Shape).Idx → EReal) (w : (⟨2, ![256, 64]⟩ : Shape).Idx → EReal)
    (b : (⟨1, ![256]⟩ : Shape).Idx → EReal) : (⟨4, ![4, 16, 2048, 2048]⟩ : Shape).Idx → EReal := fun i =>
  sim (rowOf q i ⟨(i 2).val, (i 2).isLt⟩) (rowOf k i ⟨(i 3).val, (i 3).isLt⟩)
    (fun (j : Fin 256) (d : Fin 64) => w (ix2 j d)) (fun j : Fin 256 => b (ix1 j))

/-- The same with every entry computed over leading parts and residuals. -/
def simSplitArray (q k : (⟨4, ![4, 16, 2048, 64]⟩ : Shape).Idx → EReal) (w : (⟨2, ![256, 64]⟩ : Shape).Idx → EReal)
    (b : (⟨1, ![256]⟩ : Shape).Idx → EReal) : (⟨4, ![4, 16, 2048, 2048]⟩ : Shape).Idx → EReal := fun i =>
  simSplit (rowOf q i ⟨(i 2).val, (i 2).isLt⟩) (rowOf k i ⟨(i 3).val, (i 3).isLt⟩)
    (fun (j : Fin 256) (d : Fin 64) => w (ix2 j d)) (fun j : Fin 256 => b (ix1 j))

/-- For real inputs the two arrays are one. -/
theorem simSplitArray_eq {q k : (⟨4, ![4, 16, 2048, 64]⟩ : Shape).Idx → EReal} {w : (⟨2, ![256, 64]⟩ : Shape).Idx → EReal}
    {b : (⟨1, ![256]⟩ : Shape).Idx → EReal} (hq : ∀ i, ∃ r : ℝ, q i = (r : EReal)) (hk : ∀ i, ∃ r : ℝ, k i = (r : EReal))
    (hw : ∀ i, ∃ r : ℝ, w i = (r : EReal)) (hb : ∀ i, ∃ r : ℝ, b i = (r : EReal)) :
    simSplitArray q k w b = simArray q k w b :=
  funext fun _ => simSplit_eq_sim (fun _ => hq _) (fun _ => hk _) (fun _ _ => hw _) (fun _ => hb _)

end Cert.FeatureSim

end
-- ==== Proof.KernelHost.lean ====
/-
  The kernel's program around its region.

  Before the region the host recasts queries and keys `[4, 16, 2048, 64]` to `[64, 2048, 64]` (batch and head
  merged, row-major: batch-head `16·b + h`), transposes the weights to `[64, 256]` and recasts the bias to one row
  `[1, 256]`; after it the host recasts the region's `[64, 2048, 2048]` result to `[4, 16, 2048, 2048]`. Reading each
  of these at an index, the program's result at `(b, h, q, k)` is the split similarity of query row `(b, h, q)` and key
  row `(b, h, k)`.
-/
import proofs.«152870_j45019847197425_2_alg».proof.Proof.KernelBlocks
import proofs.«152870_j45019847197425_2_alg».proof.Proof.SimArray
import Idealize.ShloMosaic.Lib.StableHlo.Run
import Idealize.ShloMosaic.Lib.ValueLayout

set_option maxRecDepth 16384

noncomputable section

open scoped BigOperators

namespace Cert.KernelIdeal.HostSide

open Cert.KernelIdeal Cert.KernelIdeal.Gen Idealize.ShloMosaic Idealize.ShloMosaic.TcCoe Idealize.SL.Sem
open Idealize.ShloMosaic.ValueIdx Cert.FeatureSim Cert.KernelIdeal.Blocks
open Idealize.ShloMosaic.Pipeline (Dat)

variable (m : (ℓ : Loc nD τ sig) → Buf (Elt Ideal) ℓ) (ρ : Dev nD → PrngReg)

/-! ## The arrays the region finds -/

theorem V_main_v0 (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  all_goals rfl

theorem V_main_v1 (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  all_goals rfl

theorem V_main_v2 (c : Dev nD) : (V m c main_v2 : S64x256.Idx → EReal)
    = transpose S64x256 [1, 0] (m ((c : Thread nD τ).loc main_arg2)) transposes_S256x64_S64x256_1_0 := by
  show StableHlo.after hostOps0 (fun b => m (c, b)) (Proc.devRef .tc main_v2) = _
  after_results
  all_goals rfl

theorem V_main_v3 (c : Dev nD) : (V m c main_v3 : S1x256.Idx → EReal)
    = shapeCast S1x256 (m ((c : Thread nD τ).loc main_arg3)) shapeCasts_S256_S1x256 := by
  show StableHlo.after hostOps0 (fun b => m (c, b)) (Proc.devRef .tc main_v3) = _
  after_results
  all_goals rfl

/-! ## The result after the region's recast -/

/-- The program's result buffer: the region's output array recast to `[4, 16, 2048, 2048]`. -/
theorem tail_eq (c : Dev nD) :
    (Pipeline.afterTail₀ cfgs (dats m) 0 (V0 m) [hostOps1] c main_v5 : S4x16x2048x2048.Idx → EReal)
      = shapeCast S4x16x2048x2048 ((dats m 0 c).arrAt 4 cfg0.N) shapeCasts_S64x2048x2048_S4x16x2048x2048 := by
  unfold Pipeline.afterTail₀
  show StableHlo.after hostOps1 _ (Proc.devRef .tc main_v5) = _
  after_results
  exact congrArg (fun A : S64x2048x2048.Idx → EReal => shapeCast S4x16x2048x2048 A shapeCasts_S64x2048x2048_S4x16x2048x2048)
    (Pipeline.withArrays_arr spec0 launch0.win.arr_inj c (V0 m c) (fun w => (dats m 0 c).arrAt w cfg0.N) 4)

/-- The recasts and the transpose read at an index: the program's result is the split-similarity array of its
    arguments. -/
theorem result_eq (q k : S4x16x2048x64.Idx → EReal) (w : S256x64.Idx → EReal) (b : S256.Idx → EReal) :
    shapeCast S4x16x2048x2048
        (regionResult (shapeCast S64x2048x64 q shapeCasts_S4x16x2048x64_S64x2048x64)
          (shapeCast S64x2048x64 k shapeCasts_S4x16x2048x64_S64x2048x64)
          (transpose S64x256 [1, 0] w transposes_S256x64_S64x256_1_0) (shapeCast S1x256 b shapeCasts_S256_S1x256))
        shapeCasts_S64x2048x2048_S4x16x2048x2048
      = simSplitArray q k w b := by
  funext i
  obtain ⟨b0, h0, q0, k0, rfl⟩ : ∃ (b0 : Fin 4) (h0 : Fin 16) (q0 k0 : Fin 2048), i = ix4 b0 h0 q0 k0 :=
    ⟨i 0, i 1, i 2, i 3, eq_ix4 i⟩
  have hg : b0.val * 16 + h0.val < 64 := by have := b0.isLt; have := h0.isLt; omega
  rw [shapeCast_apply _ shapeCasts_S64x2048x2048_S4x16x2048x2048 (ix4 b0 h0 q0 k0) (ix3 (⟨b0.val * 16 + h0.val, hg⟩ : Fin 64) q0 k0)
    (by rw [Shape.rowMajor_val_three, Shape.rowMajor_val_four]; rfl)]
  unfold regionResult simSplitArray
  have e0 : ∀ (x : S4x16x2048x64.Idx → EReal) (s : Fin 2048),
      (fun d : Fin 64 => shapeCast S64x2048x64 x shapeCasts_S4x16x2048x64_S64x2048x64 (ix3 (⟨b0.val * 16 + h0.val, hg⟩ : Fin 64) s d))
        = fun d : Fin 64 => x (ix4 b0 h0 s d) := fun x s => funext fun d =>
    shapeCast_apply x shapeCasts_S4x16x2048x64_S64x2048x64 _ (ix4 b0 h0 s d)
      (by rw [Shape.rowMajor_val_four, Shape.rowMajor_val_three]; rfl)
  have e2 : (fun (j : Fin 256) (d : Fin 64) => transpose S64x256 [1, 0] w transposes_S256x64_S64x256_1_0 (ix2 d j))
      = fun (j : Fin 256) (d : Fin 64) => w (ix2 j d) := funext fun j => funext fun d =>
    transpose_ix2_apply w transposes_S256x64_S64x256_1_0 d j
  have e3 : (fun j : Fin 256 => shapeCast S1x256 b shapeCasts_S256_S1x256 (ix2 (0 : Fin 1) j)) = fun j : Fin 256 => b (ix1 j) :=
    funext fun j => shapeCast_a_1a_apply b shapeCasts_S256_S1x256 0 j
  show simSplit (fun d : Fin 64 => shapeCast S64x2048x64 q shapeCasts_S4x16x2048x64_S64x2048x64 (ix3 (⟨b0.val * 16 + h0.val, hg⟩ : Fin 64) q0 d))
      (fun d : Fin 64 => shapeCast S64x2048x64 k shapeCasts_S4x16x2048x64_S64x2048x64 (ix3 (⟨b0.val * 16 + h0.val, hg⟩ : Fin 64) k0 d))
      (fun (j : Fin 256) (d : Fin 64) => transpose S64x256 [1, 0] w transposes_S256x64_S64x256_1_0 (ix2 d j))
      (fun j : Fin 256 => shapeCast S1x256 b shapeCasts_S256_S1x256 (ix2 (0 : Fin 1) j))
    = simSplit (fun d : Fin 64 => q (ix4 b0 h0 q0 d)) (fun d : Fin 64 => k (ix4 b0 h0 k0 d))
      (fun (j : Fin 256) (d : Fin 64) => w (ix2 j d)) (fun j : Fin 256 => b (ix1 j))
  rw [e0 q q0, e0 k k0, e2, e3]

/-! ## The kernel's run, its result named -/

/-- Every weakly fair execution of the kernel's program terminates with the result buffer at the split-similarity
    array of the arguments, the arguments unchanged. -/
theorem run : θ_run defs (onTc (τ := τ) (main (F := Ideal))) ⟨m, fun _ => 0, ρ⟩ fun r => ∀ c : Dev nD,
      r.2.mem ((c.tc : Thread nD τ).loc main_v5)
        = simSplitArray (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans
        ((tail_eq m c).trans (by rw [Blocks.final m c, V_main_v0, V_main_v1, V_main_v2, V_main_v3]; exact result_eq _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostSide

end
-- ==== Proof.ReferenceValue.lean ====
/-
  The reference computes the similarity array.

  The reference projects all queries and all keys with one product each, adds the bias spread over every row, takes the
  cosine, scales, divides each row by its norm plus `ε` (the norm as the root of the sum of squares over the feature
  axis, kept as a column and spread back), and contracts the feature axis of the two normalised arrays batch by batch
  and head by head. Read one operation at a time at an index, entry `(b, h, q, k)` of its result is the inner product
  of the normalised features of query row `(b, h, q)` and key row `(b, h, k)`.
-/
import proofs.«152870_j45019847197425_2_alg».proof.Proof.Gen.ReferenceIdeal.Read
import proofs.«152870_j45019847197425_2_alg».proof.Proof.SimArray

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx Cert.FeatureSim

/-- The query side's scaled cosine feature at an index of `[4, 16, 2048, 256]`. -/
theorem query_feat (x0 : S4x16x2048x64.Idx → EReal) (x2 : S256x64.Idx → EReal) (x3 : S256.Idx → EReal) (a : S4x16x2048x256.Idx) :
    val_main_v6 (F := Ideal) x0 x2 x3 a
      = feat (fun d : Fin 64 => x0 (ix4 (⟨(a 0).val, (a 0).isLt⟩ : Fin 4) (⟨(a 1).val, (a 1).isLt⟩ : Fin 16) (⟨(a 2).val, (a 2).isLt⟩ : Fin 2048) d))
          (fun (j : Fin 256) (d : Fin 64) => x2 (ix2 j d)) (fun j : Fin 256 => x3 (ix1 j)) (⟨(a 3).val, (a 3).isLt⟩ : Fin 256) := by
  rw [val_main_v6_apply, val_main_v5_apply, val_main_cst_apply, val_main_v4_apply, val_main_v3_apply,
    val_main_v0_apply, val_main_v2_apply, val_main_v1_apply]
  have el : ∀ k : Fin 64, lidx_main_v0 a k = ix4 (⟨(a 0).val, (a 0).isLt⟩ : Fin 4) (⟨(a 1).val, (a 1).isLt⟩ : Fin 16) (⟨(a 2).val, (a 2).isLt⟩ : Fin 2048) k :=
    fun k => funext fun ax => Fin.ext (by match ax with | ⟨0, _⟩ => rfl | ⟨1, _⟩ => rfl | ⟨2, _⟩ => rfl | ⟨3, _⟩ => rfl)
  have er : ∀ k : Fin 64, ridx_main_v0 a k = ix2 (⟨(a 3).val, (a 3).isLt⟩ : Fin 256) k :=
    fun k => funext fun ax => Fin.ext (by match ax with | ⟨0, _⟩ => rfl | ⟨1, _⟩ => rfl)
  have eb : idx_main_v1 (idx_main_v2 a) = ix1 (⟨(a 3).val, (a 3).isLt⟩ : Fin 256) :=
    funext fun ax => Fin.ext (by match ax with | ⟨0, _⟩ => rfl)
  simp only [el, er, eb]
  rfl

/-- The query side's normalised feature at an index of `[4, 16, 2048, 256]`. -/
theorem query_phi (x0 : S4x16x2048x64.Idx → EReal) (x2 : S256x64.Idx → EReal) (x3 : S256.Idx → EReal) (a : S4x16x2048x256.Idx) :
    val_main_v11 (F := Ideal) x0 x2 x3 a
      = phi (fun d : Fin 64 => x0 (ix4 (⟨(a 0).val, (a 0).isLt⟩ : Fin 4) (⟨(a 1).val, (a 1).isLt⟩ : Fin 16) (⟨(a 2).val, (a 2).isLt⟩ : Fin 2048) d))
          (fun (j : Fin 256) (d : Fin 64) => x2 (ix2 j d)) (fun j : Fin 256 => x3 (ix1 j)) (⟨(a 3).val, (a 3).isLt⟩ : Fin 256) := by
  rw [val_main_v11_apply, val_main_v10_apply, val_main_v9_apply, val_main_v7_apply, val_main_call0_v2_apply,
    val_main_call0_v1_apply, val_main_v8_apply, val_main_cst_0_apply, val_main_call0_cst_apply, query_feat]
  simp only [val_main_call0_v0_apply, query_feat, Ideal.addf_def, Ideal.mulf_def, Ideal.hostDivf_def, Ideal.hostUnary_sqrt_def,
    Ideal.ofBits_def, Ideal.ofBits_zero_f32, zero_add]
  rfl

/-- The key side's scaled cosine feature at an index of `[4, 16, 2048, 256]`. -/
theorem key_feat (x1 : S4x16x2048x64.Idx → EReal) (x2 : S256x64.Idx → EReal) (x3 : S256.Idx → EReal) (a : S4x16x2048x256.Idx) :
    val_main_v18 (F := Ideal) x1 x2 x3 a
      = feat (fun d : Fin 64 => x1 (ix4 (⟨(a 0).val, (a 0).isLt⟩ : Fin 4) (⟨(a 1).val, (a 1).isLt⟩ : Fin 16) (⟨(a 2).val, (a 2).isLt⟩ : Fin 2048) d))
          (fun (j : Fin 256) (d : Fin 64) => x2 (ix2 j d)) (fun j : Fin 256 => x3 (ix1 j)) (⟨(a 3).val, (a 3).isLt⟩ : Fin 256) := by
  rw [val_main_v18_apply, val_main_v17_apply, val_main_cst_1_apply, val_main_v16_apply, val_main_v15_apply,
    val_main_v12_apply, val_main_v14_apply, val_main_v13_apply]
  have el : ∀ k : Fin 64, lidx_main_v12 a k = ix4 (⟨(a 0).val, (a 0).isLt⟩ : Fin 4) (⟨(a 1).val, (a 1).isLt⟩ : Fin 16) (⟨(a 2).val, (a 2).isLt⟩ : Fin 2048) k :=
    fun k => funext fun ax => Fin.ext (by match ax with | ⟨0, _⟩ => rfl | ⟨1, _⟩ => rfl | ⟨2, _⟩ => rfl | ⟨3, _⟩ => rfl)
  have er : ∀ k : Fin 64, ridx_main_v12 a k = ix2 (⟨(a 3).val, (a 3).isLt⟩ : Fin 256) k :=
    fun k => funext fun ax => Fin.ext (by match ax with | ⟨0, _⟩ => rfl | ⟨1, _⟩ => rfl)
  have eb : idx_main_v13 (idx_main_v14 a) = ix1 (⟨(a 3).val, (a 3).isLt⟩ : Fin 256) :=
    funext fun ax => Fin.ext (by match ax with | ⟨0, _⟩ => rfl)
  simp only [el, er, eb]
  rfl

/-- The key side's normalised feature at an index of `[4, 16, 2048, 256]`. -/
theorem key_phi (x1 : S4x16x2048x64.Idx → EReal) (x2 : S256x64.Idx → EReal) (x3 : S256.Idx → EReal) (a : S4x16x2048x256.Idx) :
    val_main_v23 (F := Ideal) x1 x2 x3 a
      = phi (fun d : Fin 64 => x1 (ix4 (⟨(a 0).val, (a 0).isLt⟩ : Fin 4) (⟨(a 1).val, (a 1).isLt⟩ : Fin 16) (⟨(a 2).val, (a 2).isLt⟩ : Fin 2048) d))
          (fun (j : Fin 256) (d : Fin 64) => x2 (ix2 j d)) (fun j : Fin 256 => x3 (ix1 j)) (⟨(a 3).val, (a 3).isLt⟩ : Fin 256) := by
  rw [val_main_v23_apply, val_main_v22_apply, val_main_v21_apply, val_main_v19_apply, val_main_call1_v2_apply,
    val_main_call1_v1_apply, val_main_v20_apply, val_main_cst_2_apply, val_main_call1_cst_apply, key_feat]
  simp only [val_main_call1_v0_apply, key_feat, Ideal.addf_def, Ideal.mulf_def, Ideal.hostDivf_def, Ideal.hostUnary_sqrt_def,
    Ideal.ofBits_def, Ideal.ofBits_zero_f32, zero_add]
  rfl

/-- THE REFERENCE'S RESULT is the similarity array of its arguments. -/
theorem result_eq (x0 x1 : S4x16x2048x64.Idx → EReal) (x2 : S256x64.Idx → EReal) (x3 : S256.Idx → EReal) :
    val_main_v24 (F := Ideal) x0 x1 x2 x3 = simArray x0 x1 x2 x3 := by
  funext i
  rw [val_main_v24_apply]
  unfold simArray sim
  refine Finset.sum_congr rfl fun j _ => ?_
  rw [query_phi, key_phi]

end Cert.ReferenceIdeal.RefValue

end
-- ==== Proof.FiniteInputs.lean ====
/-
  The precondition `finite_inputs` says, for each of the four float arguments x, that |x| < +∞ at every entry
  (an elementwise comparison against the f32 pattern of +∞, then a conjunction over all entries), and conjoins the four.
  Read over the extended reals — where |x| is max x (-x), the pattern 0x7F800000 denotes ⊤, and the comparison is
  the strict order — this says every entry of every argument is a real number: |⊥| = |⊤| = ⊤ is not below ⊤, so an
  entry that passes the comparison is neither infinity.
-/
import proofs.«152870_j45019847197425_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic Idealize.ShloMosaic.ValueIdx
open Cert.Pre_finite_inputs

/-- The f32 pattern 0x7F800000 (sign 0, exponent all ones, fraction 0) denotes +∞. -/
theorem inf_word : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An extended real x with max x (-x) < +∞ is a real number: at x = ⊥ and at x = ⊤ the maximum is ⊤. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  rw [ofBool_eq_one] at h
  induction x using EReal.rec with
  | bot => simp at h
  | coe r => exact ⟨r, rfl⟩
  | top => simp at h

/-- The rank-0 shape has one index. -/
instance : Subsingleton S_.Idx := ⟨fun a b => funext fun d => d.elim0⟩

/-- One argument, any shape: if the conjunction over all entries of "|a i| < +∞" is 1, every entry of a is real. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32))) init hr hu ix0 = 1#1)
    (i : s.Idx) : ∃ r : ℝ, a i = (r : EReal) :=
  real_of_abs_lt_inf (a i) (Host.reduce_andi_all _ init hr hu ix0 e i)

variable [Cert.Pre_finite_inputs.Facts]

/-- If the printed finiteness predicate is all ones, every entry of every argument is a real number. -/
theorem real_of_finite_inputs (a0 a1 : FVec Ideal Cert.Pre_finite_inputs.S4x16x2048x64 .f32)
    (a2 : FVec Ideal Cert.Pre_finite_inputs.S256x64 .f32) (a3 : FVec Ideal Cert.Pre_finite_inputs.S256 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have e := congrFun h ix0
  unfold Cert.Pre_finite_inputs.fn Cert.Pre_finite_inputs.fn_part1 at e
  dsimp only [andi] at e
  rw [IntOp.andi_eq_one, IntOp.andi_eq_one, IntOp.andi_eq_one] at e
  obtain ⟨⟨⟨e0, e1⟩, e2⟩, e3⟩ := e
  exact ⟨real_of_all a0 _ _ _ _ e0, real_of_all a1 _ _ _ _ e1, real_of_all a2 _ _ _ _ e2, real_of_all a3 _ _ _ _ e3⟩

end Cert.FiniteInputs

end
-- ==== Proof.lean ====
/-
  The kernel and its reference compute one array of similarities.

  Both programs map each query row and each key row `x` of 64 numbers to 256 normalised cosine features

      φ x j = c · cos (∑ d, x d · W j d + b j) / (√(∑ l, (c · cos (…))²) + ε)

  and return, for every batch, head, query row `q` and key row `k`, the inner product `∑ j, φ (query q) j · φ (key k) j`.
  The reference does so with whole-array operations. The kernel walks a grid of (batch-head, block of 1024 query rows),
  recomputes the features of the block's query rows and of all the key rows, writes each feature vector as a leading
  part plus a residual — on the extended reals, where a change of number format is the identity, the leading part is
  `φ` itself and the residual is `φ − φ` — and sums three products, leading·leading + leading·residual +
  residual·leading. The two agree because `φ` is a real number whenever the inputs are (so `φ − φ = 0` and the two
  residual products vanish), which is what the precondition — every input entry finite — provides.

  The proof: the kernel's frame run has its output array at the blocks' one function (Proof/KernelBlocks.lean, over the
  payload read at an entry in Proof/KernelPayload.lean and Proof/FeatureRows.lean), the host's recasts around the region
  turn it into the split-similarity array of the arguments (Proof/KernelHost.lean); the reference's run is the
  similarity array (Proof/ReferenceValue.lean); finiteness of the inputs (Proof/FiniteInputs.lean) makes every entry of
  every argument real, and for real arguments the two arrays are one (Proof/SimArray.lean, Proof/FeatureSim.lean).
-/
import proofs.«152870_j45019847197425_2_alg».proof.Defs
import proofs.«152870_j45019847197425_2_alg».proof.Proof.Gen.Kernel
import proofs.«152870_j45019847197425_2_alg».proof.Proof.Gen.Kernel.Skeleton
import proofs.«152870_j45019847197425_2_alg».proof.Proof.Gen.Kernel.Launch
import proofs.«152870_j45019847197425_2_alg».proof.Proof.Gen.Kernel.Points
import proofs.«152870_j45019847197425_2_alg».proof.Proof.Gen.Kernel.Frame
import proofs.«152870_j45019847197425_2_alg».proof.Proof.Gen.KernelIdeal
import proofs.«152870_j45019847197425_2_alg».proof.Proof.Gen.KernelIdeal.Skeleton
import proofs.«152870_j45019847197425_2_alg».proof.Proof.Gen.KernelIdeal.Launch
import proofs.«152870_j45019847197425_2_alg».proof.Proof.Gen.KernelIdeal.Points
import proofs.«152870_j45019847197425_2_alg».proof.Proof.Gen.KernelIdeal.Frame
import proofs.«152870_j45019847197425_2_alg».proof.Proof.Gen.ReferenceIdeal
import proofs.«152870_j45019847197425_2_alg».proof.Proof.Gen.Pre_finite_inputs
import proofs.«152870_j45019847197425_2_alg».proof.Proof.Gen.ReferenceIdeal.Run
import proofs.«152870_j45019847197425_2_alg».proof.Proof.Gen.ReferenceIdeal.Read
import proofs.«152870_j45019847197425_2_alg».proof.Proof.KernelHost
import proofs.«152870_j45019847197425_2_alg».proof.Proof.ReferenceValue
import proofs.«152870_j45019847197425_2_alg».proof.Proof.FiniteInputs
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two narrowings-and-widenings the idealized kernel drops are the identity on the extended reals. -/
theorem preserves : Cert.preserves_Kernel_KernelIdeal :=
  ⟨IdealRules.truncf_extf.statement Cert.KernelIdeal.S1024x256 .f32 .bf16,
    IdealRules.truncf_extf.statement Cert.KernelIdeal.S2048x256 .f32 .bf16⟩

/-- From memories agreeing on finite arguments both programs end with the similarity array of the arguments: the
    kernel with the split-similarity array, which for real entries is the similarity array; the reference with the
    similarity array outright. -/
theorem algebraic : Cert.algebraic_KernelIdeal_ReferenceIdeal := by
  intro m ρ m' ρ' hpre hagree
  refine ⟨fun c => Cert.FeatureSim.simArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.HostSide.run m ρ)
    obtain ⟨h0, h1, h2, h3⟩ := Cert.FiniteInputs.real_of_finite_inputs _ _ _ _ (hpre c)
    exact Cert.FeatureSim.simSplitArray_eq h0 h1 h2 h3
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.ReferenceIdeal.RefValue.result_eq, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
